-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x3 : Shape := ⟨2, ![1000000, 3]⟩
abbrev S1000000 : Shape := ⟨1, ![1000000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64x4 .f32) (main_arg6 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4 .f32 := Host.absf main_arg5
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S1000000x64 .f32) (main_arg1 : FVec F S1000000x3 .f32) (main_arg2 : IVec S1000000 32) (main_arg3 : FVec F S64x64 .f32) (main_arg4 : FVec F S64 .f32) (main_arg5 : FVec F S64x4 .f32) (main_arg6 : FVec F S4 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S1000000x64 : Shape := ⟨2, ![1000000, 64]⟩
abbrev S1000000x3 : Shape := ⟨2, ![1000000, 3]⟩
abbrev S1000000 : Shape := ⟨1, ![1000000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩
abbrev S1024 : Shape := ⟨1, ![1024]⟩
abbrev S1000000x1 : Shape := ⟨2, ![1000000, 1]⟩
abbrev S1024x3 : Shape := ⟨2, ![1024, 3]⟩
abbrev S1024x1 : Shape := ⟨2, ![1024, 1]⟩
abbrev S1x64 : Shape := ⟨2, ![1, 64]⟩
abbrev S1x4 : Shape := ⟨2, ![1, 4]⟩
abbrev S1000000x12 : Shape := ⟨2, ![1000000, 12]⟩
abbrev S20000x64 : Shape := ⟨2, ![20000, 64]⟩
abbrev S20000x3 : Shape := ⟨2, ![20000, 3]⟩
abbrev S20000x12 : Shape := ⟨2, ![20000, 12]⟩
abbrev S20000x4 : Shape := ⟨2, ![20000, 4]⟩
abbrev S20000x4x1 : Shape := ⟨3, ![20000, 4, 1]⟩
abbrev S20000x1x3 : Shape := ⟨3, ![20000, 1, 3]⟩
abbrev S20000x4x3 : Shape := ⟨3, ![20000, 4, 3]⟩
abbrev S1024x12 : Shape := ⟨2, ![1024, 12]⟩
abbrev S1024x4x3 : Shape := ⟨3, ![1024, 4, 3]⟩
abbrev S1024x4 : Shape := ⟨2, ![1024, 4]⟩
abbrev S1024x4x1 : Shape := ⟨3, ![1024, 4, 1]⟩
abbrev S1x1024x1x3 : Shape := ⟨4, ![1, 1024, 1, 3]⟩
abbrev S1x1024x4x3 : Shape := ⟨4, ![1, 1024, 4, 3]⟩

abbrev nBuf : Space → Nat
  | .hbm => 61
  | .vmem => 10
  | .smem => 0
  | _ => 0

abbrev bufTy : (tb : Table) → Fin (tcTables nBuf tb) → BufTy
  | .hbm, ⟨0, _⟩ => ⟨S1000000x64, .f32⟩
  | .hbm, ⟨1, _⟩ => ⟨S1000000x3, .f32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x4, .f32⟩
  | .hbm, ⟨6, _⟩ => ⟨S4, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S1024, .f32⟩
  | .hbm, ⟨11, _⟩ => ⟨S1000000x1, .i32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024x3, .f32⟩
  | .hbm, ⟨19, _⟩ => ⟨S1000000x1, .i32⟩
  | .hbm, ⟨20, _⟩ => ⟨S1024x3, .f32⟩
  | .hbm, ⟨21, _⟩ => ⟨S1024x1, .f32⟩
  | .hbm, ⟨22, _⟩ => ⟨S1024x3, .f32⟩
  | .hbm, ⟨23, _⟩ => ⟨S1024x3, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x3, .f32⟩
  | .hbm, ⟨33, _⟩ => ⟨S1000000x3, .f32⟩
  | .hbm, ⟨34, _⟩ => ⟨S1x64, .f32⟩
  | .hbm, ⟨35, _⟩ => ⟨S1x4, .f32⟩
  | .hbm, ⟨36, _⟩ => ⟨S1000000x12, .f32⟩
  | .hbm, ⟨37, _⟩ => ⟨S_, .f32⟩
  | .hbm, ⟨38, _⟩ => ⟨S1024x12, .f32⟩
  | .hbm, ⟨39, _⟩ => ⟨S1000000x1, .i32⟩
  | .hbm, ⟨40, _⟩ => ⟨S1024x12, .f32⟩
  | .hbm, ⟨41, _⟩ => ⟨S1024x1, .f32⟩
  | .hbm, ⟨42, _⟩ => ⟨S1024x12, .f32⟩
  | .hbm, ⟨43, _⟩ => ⟨S1024x12, .f32⟩
  | .hbm, ⟨44, _⟩ => ⟨S1024x4x3, .f32⟩
  | .hbm, ⟨45, _⟩ => ⟨S1024x4x3, .f32⟩
  | .hbm, ⟨46, _⟩ => ⟨S_, .f32⟩
  | .hbm, ⟨47, _⟩ => ⟨S1024x4, .f32⟩
  | .hbm, ⟨48, _⟩ => ⟨S1024x4x1, .f32⟩
  | .hbm, ⟨49, _⟩ => ⟨S1024x4x1, .f32⟩
  | .hbm, ⟨50, _⟩ => ⟨S_, .f32⟩
  | .hbm, ⟨51, _⟩ => ⟨S_, .f32⟩
  | .hbm, ⟨52, _⟩ => ⟨S1024x4x1, .f32⟩
  | .hbm, ⟨53, _⟩ => ⟨S1024x4x1, .f32⟩
  | .hbm, ⟨54, _⟩ => ⟨S1024x4x3, .f32⟩
  | .hbm, ⟨55, _⟩ => ⟨S1024x4x3, .f32⟩
  | .hbm, ⟨56, _⟩ => ⟨S1024x12, .f32⟩
  | .hbm, ⟨57, _⟩ => ⟨S1x1024x1x3, .f32⟩
  | .hbm, ⟨58, _⟩ => ⟨S1x1024x4x3, .f32⟩
  | .hbm, ⟨59, _⟩ => ⟨S1024x12, .f32⟩
  | .hbm, ⟨60, _⟩ => ⟨S1024x12, .f32⟩
  | .local _ .vmem, ⟨0, _⟩ => ⟨S20000x64, .f32⟩
  | .local _ .vmem, ⟨1, _⟩ => ⟨S20000x64, .f32⟩
  | .local _ .vmem, ⟨2, _⟩ => ⟨S20000x3, .f32⟩
  | .local _ .vmem, ⟨3, _⟩ => ⟨S20000x3, .f32⟩
  | .local _ .vmem, ⟨4, _⟩ => ⟨S64x64, .f32⟩
  | .local _ .vmem, ⟨5, _⟩ => ⟨S1x64, .f32⟩
  | .local _ .vmem, ⟨6, _⟩ => ⟨S64x4, .f32⟩
  | .local _ .vmem, ⟨7, _⟩ => ⟨S1x4, .f32⟩
  | .local _ .vmem, ⟨8, _⟩ => ⟨S20000x12, .f32⟩
  | .local _ .vmem, ⟨9, _⟩ => ⟨S20000x12, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v29 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S20000x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1000000 : S_.BroadcastsInDim S1000000 (![] : Fin 0 → Fin S1000000.rank)
  bcast_S_S1024 : S_.BroadcastsInDim S1024 (![] : Fin 0 → Fin S1024.rank)
  bcast_S1000000_S1000000x1_0 : S1000000.BroadcastsInDim S1000000x1 (![0] : Fin 1 → Fin S1000000x1.rank)
  bcast_S_S1024x3 : S_.BroadcastsInDim S1024x3 (![] : Fin 0 → Fin S1024x3.rank)
  bcast_S1024_S1024x1_0 : S1024.BroadcastsInDim S1024x1 (![0] : Fin 1 → Fin S1024x1.rank)
  bcast_S1024x1_S1024x3_0_1 : S1024x1.BroadcastsInDim S1024x3 (![0, 1] : Fin 2 → Fin S1024x3.rank)
  shapeCasts_S64_S1x64 : S64.ShapeCasts S1x64
  shapeCasts_S4_S1x4 : S4.ShapeCasts S1x4
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S20000x4 : S1x4.Broadcasts S20000x4
  inb_S20000x3_S20000x3_0_0 : ∀ a, (![0, 0] : Fin 2 → Nat) a + S20000x3.size a ≤ S20000x3.size a
  h_S20000x3 : 0 < S20000x3.numel
  shapeCasts_S20000x3_S20000x3 : S20000x3.ShapeCasts S20000x3
  shapeCasts_S20000x4_S20000x4x1 : S20000x4.ShapeCasts S20000x4x1
  shapeCasts_S20000x3_S20000x1x3 : S20000x3.ShapeCasts S20000x1x3
  broadcasts_S20000x4x1_S20000x4x3 : S20000x4x1.Broadcasts S20000x4x3
  broadcasts_S20000x1x3_S20000x4x3 : S20000x1x3.Broadcasts S20000x4x3
  shapeCasts_S20000x4x3_S20000x12 : S20000x4x3.ShapeCasts S20000x12
  inb_S20000x12_S20000x12_0_0 : ∀ a, (![0, 0] : Fin 2 → Nat) a + S20000x12.size a ≤ S20000x12.size a
  h_S20000x12 : 0 < S20000x12.numel
  bcast_S_S1024x12 : S_.BroadcastsInDim S1024x12 (![] : Fin 0 → Fin S1024x12.rank)
  bcast_S1024x1_S1024x12_0_1 : S1024x1.BroadcastsInDim S1024x12 (![0, 1] : Fin 2 → Fin S1024x12.rank)
  shapeCasts_S1024x12_S1024x4x3 : S1024x12.ShapeCasts S1024x4x3
  reducesTo_S1024x4x3_S1024x4_d2 : S1024x4x3.ReducesTo [2] S1024x4
  h_S_ : 0 < S_.numel
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1024x4x1_S1024x4x3_0_1_2 : S1024x4x1.BroadcastsInDim S1024x4x3 (![0, 1, 2] : Fin 3 → Fin S1024x4x3.rank)
  shapeCasts_S1024x4x3_S1024x12 : S1024x4x3.ShapeCasts S1024x12
  shapeCasts_S1024x3_S1x1024x1x3 : S1024x3.ShapeCasts S1x1024x1x3
  bcast_S1x1024x1x3_S1x1024x4x3_0_1_2_3 : S1x1024x1x3.BroadcastsInDim S1x1024x4x3 (![0, 1, 2, 3] : Fin 4 → Fin S1x1024x4x3.rank)
  shapeCasts_S1x1024x4x3_S1024x12 : S1x1024x4x3.ShapeCasts S1024x12
  scatter_S1024_S1000000x1_S1000000_n_0_0_1_wf : ScatterDims.WF S1024 S1000000x1 S1000000 [] [0] [0] 1
  scatter_S1024x3_S1000000x1_S1000000x3_1_0_0_1_wf : ScatterDims.WF S1024x3 S1000000x1 S1000000x3 [1] [0] [0] 1
  gather_S1024x3_S1000000x1_S1000000x3_1_0_n_n_0_1_13_wf : GatherDims.WF S1024x3 S1000000x1 S1000000x3 [1] [0] [] [0] [] 1 ![1, 3]
  dot_S20000x64_S64x64_S20000x64_1_0_0_1_n_n_wf : DotDims.WF S20000x64 S64x64 S20000x64 [1] [0] [0] [1] [] []
  dot_S20000x64_S64x4_S20000x4_1_0_0_1_n_n_wf : DotDims.WF S20000x64 S64x4 S20000x4 [1] [0] [0] [1] [] []
  scatter_S1024x12_S1000000x1_S1000000x12_1_0_0_1_wf : ScatterDims.WF S1024x12 S1000000x1 S1000000x12 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .f32 = 32 ∨ (Rect.block (s := S1000000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x3.size a ≤ S1000000x3.size a
  hwx0_1 : ∀ i : grid0.Coords, EltTy.bits .f32 = 32 ∨ (Rect.block (s := S1000000x3) S20000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S64x4.size a
  hwx0_4 : ∀ i : grid0.Coords, EltTy.bits .f32 = 32 ∨ (Rect.block (s := S64x4) S64x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S20000x12.size a ≤ S1000000x12.size a
  hwx0_6 : ∀ i : grid0.Coords, EltTy.bits .f32 = 32 ∨ (Rect.block (s := S1000000x12) S20000x12.size (cc0_transform_6 i) (hinb0_6 i)).WholeWords (EltTy.packing .f32)

variable [Facts₀]

def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def scatter_S1024x3_S1000000x1_S1000000x3_1_0_0_1 : ScatterDims S1024x3 S1000000x1 S1000000x3 where
  updateWindowDims := [1]
  insertedWindowDims := [0]
  scatterDimsToOperandDims := [0]
  indexVectorDim := 1
  wf := scatter_S1024x3_S1000000x1_S1000000x3_1_0_0_1_wf
def gather_S1024x3_S1000000x1_S1000000x3_1_0_n_n_0_1_13 : GatherDims S1024x3 S1000000x1 S1000000x3 where
  offsetDims := [1]
  collapsedSliceDims := [0]
  operandBatchingDims := []
  startIndicesBatchingDims := []
  startIndexMap := [0]
  indexVectorDim := 1
  sliceSizes := ![1, 3]
  wf := gather_S1024x3_S1000000x1_S1000000x3_1_0_n_n_0_1_13_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x4_S20000x4_1_0_0_1_n_n : DotDims S20000x64 S64x4 S20000x4 where
  lhsContracting := [1]
  rhsContracting := [0]
  lhsNonContracting := [0]
  rhsNonContracting := [1]
  lhsBatch := []
  rhsBatch := []
  wf := dot_S20000x64_S64x4_S20000x4_1_0_0_1_n_n_wf
def scatter_S1024x12_S1000000x1_S1000000x12_1_0_0_1 : ScatterDims S1024x12 S1000000x1 S1000000x12 where
  updateWindowDims := [1]
  insertedWindowDims := [0]
  scatterDimsToOperandDims := [0]
  indexVectorDim := 1
  wf := scatter_S1024x12_S1000000x1_S1000000x12_1_0_0_1_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S20000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S20000x12.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000x3 : Shape := ⟨2, ![1000000, 3]⟩
abbrev S1000000 : Shape := ⟨1, ![1000000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩
abbrev S1024x3 : Shape := ⟨2, ![1024, 3]⟩
abbrev S1000000x1 : Shape := ⟨2, ![1000000, 1]⟩
abbrev S1024 : Shape := ⟨1, ![1024]⟩
abbrev S1024x1 : Shape := ⟨2, ![1024, 1]⟩
abbrev S1x64 : Shape := ⟨2, ![1, 64]⟩
abbrev S1000000x4 : Shape := ⟨2, ![1000000, 4]⟩
abbrev S1x4 : Shape := ⟨2, ![1, 4]⟩
abbrev S1000000x4x1 : Shape := ⟨3, ![1000000, 4, 1]⟩
abbrev S1000000x1x3 : Shape := ⟨3, ![1000000, 1, 3]⟩
abbrev S1000000x4x3 : Shape := ⟨3, ![1000000, 4, 3]⟩
abbrev S1000000x12 : Shape := ⟨2, ![1000000, 12]⟩
abbrev S1024x12 : Shape := ⟨2, ![1024, 12]⟩
abbrev S1024x4x3 : Shape := ⟨3, ![1024, 4, 3]⟩
abbrev S1024x4 : Shape := ⟨2, ![1024, 4]⟩
abbrev S1024x4x1 : Shape := ⟨3, ![1024, 4, 1]⟩
abbrev S1x1024x1x3 : Shape := ⟨4, ![1, 1024, 1, 3]⟩
abbrev S1x1024x4x3 : Shape := ⟨4, ![1, 1024, 4, 3]⟩

abbrev nBuf : Space → Nat
  | .hbm => 91
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x3, .f32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x4, .f32⟩
  | .hbm, ⟨6, _⟩ => ⟨S4, .f32⟩
  | .hbm, ⟨7, _⟩ => ⟨S_, .f32⟩
  | .hbm, ⟨8, _⟩ => ⟨S1024x3, .f32⟩
  | .hbm, ⟨9, _⟩ => ⟨S1000000x1, .i32⟩
  | .hbm, ⟨10, _⟩ => ⟨S1024x3, .f32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S1024, .f32⟩
  | .hbm, ⟨15, _⟩ => ⟨S1000000x1, .i32⟩
  | .hbm, ⟨16, _⟩ => ⟨S1024, .f32⟩
  | .hbm, ⟨17, _⟩ => ⟨S_, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024x1, .f32⟩
  | .hbm, ⟨22, _⟩ => ⟨S1024x3, .f32⟩
  | .hbm, ⟨23, _⟩ => ⟨S1024x3, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x3, .f32⟩
  | .hbm, ⟨33, _⟩ => ⟨S1000000x3, .f32⟩
  | .hbm, ⟨34, _⟩ => ⟨S1000000x64, .f32⟩
  | .hbm, ⟨35, _⟩ => ⟨S1x64, .f32⟩
  | .hbm, ⟨36, _⟩ => ⟨S1000000x64, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S_, .f32⟩
  | .hbm, ⟨41, _⟩ => ⟨S1000000x64, .f32⟩
  | .hbm, ⟨42, _⟩ => ⟨S1000000x64, .f32⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x4, .f32⟩
  | .hbm, ⟨48, _⟩ => ⟨S1x4, .f32⟩
  | .hbm, ⟨49, _⟩ => ⟨S1000000x4, .f32⟩
  | .hbm, ⟨50, _⟩ => ⟨S1000000x4, .f32⟩
  | .hbm, ⟨51, _⟩ => ⟨S1000000x4x1, .f32⟩
  | .hbm, ⟨52, _⟩ => ⟨S1000000x1x3, .f32⟩
  | .hbm, ⟨53, _⟩ => ⟨S1000000x4x3, .f32⟩
  | .hbm, ⟨54, _⟩ => ⟨S1000000x4x3, .f32⟩
  | .hbm, ⟨55, _⟩ => ⟨S1000000x4x3, .f32⟩
  | .hbm, ⟨56, _⟩ => ⟨S1000000x12, .f32⟩
  | .hbm, ⟨57, _⟩ => ⟨S_, .f32⟩
  | .hbm, ⟨58, _⟩ => ⟨S1024x12, .f32⟩
  | .hbm, ⟨59, _⟩ => ⟨S1000000x1, .i32⟩
  | .hbm, ⟨60, _⟩ => ⟨S1024x12, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S1024, .f32⟩
  | .hbm, ⟨65, _⟩ => ⟨S1000000x1, .i32⟩
  | .hbm, ⟨66, _⟩ => ⟨S1024, .f32⟩
  | .hbm, ⟨67, _⟩ => ⟨S_, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024x1, .f32⟩
  | .hbm, ⟨72, _⟩ => ⟨S1024x12, .f32⟩
  | .hbm, ⟨73, _⟩ => ⟨S1024x12, .f32⟩
  | .hbm, ⟨74, _⟩ => ⟨S1024x4x3, .f32⟩
  | .hbm, ⟨75, _⟩ => ⟨S1024x4x3, .f32⟩
  | .hbm, ⟨76, _⟩ => ⟨S_, .f32⟩
  | .hbm, ⟨77, _⟩ => ⟨S1024x4, .f32⟩
  | .hbm, ⟨78, _⟩ => ⟨S1024x4x1, .f32⟩
  | .hbm, ⟨79, _⟩ => ⟨S1024x4x1, .f32⟩
  | .hbm, ⟨80, _⟩ => ⟨S_, .f32⟩
  | .hbm, ⟨81, _⟩ => ⟨S_, .f32⟩
  | .hbm, ⟨82, _⟩ => ⟨S1024x4x1, .f32⟩
  | .hbm, ⟨83, _⟩ => ⟨S1024x4x1, .f32⟩
  | .hbm, ⟨84, _⟩ => ⟨S1024x4x3, .f32⟩
  | .hbm, ⟨85, _⟩ => ⟨S1024x4x3, .f32⟩
  | .hbm, ⟨86, _⟩ => ⟨S1024x12, .f32⟩
  | .hbm, ⟨87, _⟩ => ⟨S1x1024x1x3, .f32⟩
  | .hbm, ⟨88, _⟩ => ⟨S1x1024x4x3, .f32⟩
  | .hbm, ⟨89, _⟩ => ⟨S1024x12, .f32⟩
  | .hbm, ⟨90, _⟩ => ⟨S1024x12, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_call3_v2 : Ref sig .tc := ⟨.hbm, 78, rfl⟩
abbrev main_v46 : Ref sig .tc := ⟨.hbm, 79, rfl⟩
abbrev main_cst_8 : Ref sig .tc := ⟨.hbm, 80, rfl⟩
abbrev main_call4_v0 : Ref sig .tc := ⟨.hbm, 81, rfl⟩
abbrev main_call4_v1 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩

abbrev nD : Nat := 1
abbrev τ : Topo := Topo.v7x

variable {F : FTy → Type} [FloatOps F]

class Facts₀ : Prop where
  bcast_S_S1024x3 : S_.BroadcastsInDim S1024x3 (![] : Fin 0 → Fin S1024x3.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x3_0_1 : S1024x1.BroadcastsInDim S1024x3 (![0, 1] : Fin 2 → Fin S1024x3.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S1000000x4_S1000000x4x1_0_1 : S1000000x4.BroadcastsInDim S1000000x4x1 (![0, 1] : Fin 2 → Fin S1000000x4x1.rank)
  bcast_S1000000x3_S1000000x1x3_0_2 : S1000000x3.BroadcastsInDim S1000000x1x3 (![0, 2] : Fin 2 → Fin S1000000x1x3.rank)
  bcast_S1000000x4x1_S1000000x4x3_0_1_2 : S1000000x4x1.BroadcastsInDim S1000000x4x3 (![0, 1, 2] : Fin 3 → Fin S1000000x4x3.rank)
  bcast_S1000000x1x3_S1000000x4x3_0_1_2 : S1000000x1x3.BroadcastsInDim S1000000x4x3 (![0, 1, 2] : Fin 3 → Fin S1000000x4x3.rank)
  shapeCasts_S1000000x4x3_S1000000x12 : S1000000x4x3.ShapeCasts S1000000x12
  bcast_S_S1024x12 : S_.BroadcastsInDim S1024x12 (![] : Fin 0 → Fin S1024x12.rank)
  bcast_S1024x1_S1024x12_0_1 : S1024x1.BroadcastsInDim S1024x12 (![0, 1] : Fin 2 → Fin S1024x12.rank)
  shapeCasts_S1024x12_S1024x4x3 : S1024x12.ShapeCasts S1024x4x3
  reducesTo_S1024x4x3_S1024x4_d2 : S1024x4x3.ReducesTo [2] S1024x4
  h_S_ : 0 < S_.numel
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1024x4x1_S1024x4x3_0_1_2 : S1024x4x1.BroadcastsInDim S1024x4x3 (![0, 1, 2] : Fin 3 → Fin S1024x4x3.rank)
  shapeCasts_S1024x4x3_S1024x12 : S1024x4x3.ShapeCasts S1024x12
  shapeCasts_S1024x3_S1x1024x1x3 : S1024x3.ShapeCasts S1x1024x1x3
  bcast_S1x1024x1x3_S1x1024x4x3_0_1_2_3 : S1x1024x1x3.BroadcastsInDim S1x1024x4x3 (![0, 1, 2, 3] : Fin 4 → Fin S1x1024x4x3.rank)
  shapeCasts_S1x1024x4x3_S1024x12 : S1x1024x4x3.ShapeCasts S1024x12
  scatter_S1024x3_S1000000x1_S1000000x3_1_0_0_1_wf : ScatterDims.WF S1024x3 S1000000x1 S1000000x3 [1] [0] [0] 1
  scatter_S1024_S1000000x1_S1000000_n_0_0_1_wf : ScatterDims.WF S1024 S1000000x1 S1000000 [] [0] [0] 1
  gather_S1024x3_S1000000x1_S1000000x3_1_0_n_n_0_1_13_wf : GatherDims.WF S1024x3 S1000000x1 S1000000x3 [1] [0] [] [0] [] 1 ![1, 3]
  dot_S1000000x64_S64x64_S1000000x64_1_0_0_1_n_n_wf : DotDims.WF S1000000x64 S64x64 S1000000x64 [1] [0] [0] [1] [] []
  dot_S1000000x64_S64x4_S1000000x4_1_0_0_1_n_n_wf : DotDims.WF S1000000x64 S64x4 S1000000x4 [1] [0] [0] [1] [] []
  scatter_S1024x12_S1000000x1_S1000000x12_1_0_0_1_wf : ScatterDims.WF S1024x12 S1000000x1 S1000000x12 [1] [0] [0] 1

variable [Facts₀]

def scatter_S1024x3_S1000000x1_S1000000x3_1_0_0_1 : ScatterDims S1024x3 S1000000x1 S1000000x3 where
  updateWindowDims := [1]
  insertedWindowDims := [0]
  scatterDimsToOperandDims := [0]
  indexVectorDim := 1
  wf := scatter_S1024x3_S1000000x1_S1000000x3_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def gather_S1024x3_S1000000x1_S1000000x3_1_0_n_n_0_1_13 : GatherDims S1024x3 S1000000x1 S1000000x3 where
  offsetDims := [1]
  collapsedSliceDims := [0]
  operandBatchingDims := []
  startIndicesBatchingDims := []
  startIndexMap := [0]
  indexVectorDim := 1
  sliceSizes := ![1, 3]
  wf := gather_S1024x3_S1000000x1_S1000000x3_1_0_n_n_0_1_13_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x4_S1000000x4_1_0_0_1_n_n : DotDims S1000000x64 S64x4 S1000000x4 where
  lhsContracting := [1]
  rhsContracting := [0]
  lhsNonContracting := [0]
  rhsNonContracting := [1]
  lhsBatch := []
  rhsBatch := []
  wf := dot_S1000000x64_S64x4_S1000000x4_1_0_0_1_n_n_wf
def scatter_S1024x12_S1000000x1_S1000000x12_1_0_0_1 : ScatterDims S1024x12 S1000000x1 S1000000x12 where
  updateWindowDims := [1]
  insertedWindowDims := [0]
  scatterDimsToOperandDims := [0]
  indexVectorDim := 1
  wf := scatter_S1024x12_S1000000x1_S1000000x12_1_0_0_1_wf

class Facts : Prop extends Facts₀ where

variable [Facts]
-- ==== Proof.NodeWeights.lean ====
/-
  One node's displacement block, as a function of that node's data alone.

  For a node with feature row f (64 entries) and centred position p (3 entries) the network computes
      h k = (∑ l, f l · W1 l k) + b1 k                 the hidden pre-activation,
      s k = h k · logistic (h k)                        its SiLU,
      w c = (∑ k, s k · W2 k c) + b2 c                  the four tensor-product weights,
  and the node's 12 displacement entries are  w c · p d  laid out with the channel c major: entry q is
  channel q / 3, component q % 3.  Everything is over the extended reals; no law beyond the definitions is used, so no
  finiteness is needed anywhere.

  `dispArray` is the whole [1000000, 12] array: row n is `nodeDisp` of row n of the features and of the positions.
-/
import Idealize.ShloMosaic.PureOps.Ideal
import Idealize.ShloMosaic.Lib.ValueIdx

noncomputable section

namespace Cert.VNode

open Idealize.ShloMosaic Idealize.ShloMosaic.ValueIdx

/-- SiLU on the extended reals: `x · logistic x`. -/
def silu (x : EReal) : EReal := x * Ideal.logistic x

/-- The hidden pre-activation `k` of a node with feature row `f`. -/
def hidden (f : Fin 64 → EReal) (W1 : Fin 64 → Fin 64 → EReal) (b1 : Fin 64 → EReal) (k : Fin 64) : EReal :=
  (∑ l : Fin 64, f l * W1 l k) + b1 k

/-- The tensor-product weight of channel `c`. -/
def weight (f : Fin 64 → EReal) (W1 : Fin 64 → Fin 64 → EReal) (b1 : Fin 64 → EReal)
    (W2 : Fin 64 → Fin 4 → EReal) (b2 : Fin 4 → EReal) (c : Fin 4) : EReal :=
  (∑ k : Fin 64, silu (hidden f W1 b1 k) * W2 k c) + b2 c

/-- Entry (channel `c`, component `d`) of the node's displacement: the channel's weight times the position component. -/
def nodeDisp (f : Fin 64 → EReal) (p : Fin 3 → EReal) (W1 : Fin 64 → Fin 64 → EReal) (b1 : Fin 64 → EReal)
    (W2 : Fin 64 → Fin 4 → EReal) (b2 : Fin 4 → EReal) (c : Fin 4) (d : Fin 3) : EReal :=
  weight f W1 b1 W2 b2 c * p d

/-- The channel of entry `q` of a 12-entry row. -/
abbrev chan (q : Fin 12) : Fin 4 := ⟨q.val / 3, by have := q.isLt; omega⟩
/-- The component of entry `q` of a 12-entry row. -/
abbrev comp (q : Fin 12) : Fin 3 := ⟨q.val % 3, by omega⟩

/-- Entry (n, q) of the displacement array of 1000000 nodes. -/
def dispAt (feat : (⟨2, ![1000000, 64]⟩ : Shape).Idx → EReal) (pos : (⟨2, ![1000000, 3]⟩ : Shape).Idx → EReal)
    (W1 : (⟨2, ![64, 64]⟩ : Shape).Idx → EReal) (b1 : (⟨1, ![64]⟩ : Shape).Idx → EReal)
    (W2 : (⟨2, ![64, 4]⟩ : Shape).Idx → EReal) (b2 : (⟨1, ![4]⟩ : Shape).Idx → EReal)
    (n : Fin 1000000) (q : Fin 12) : EReal :=
  nodeDisp (fun l => feat (ix2 n l)) (fun d => pos (ix2 n d)) (fun l k => W1 (ix2 l k)) (fun k => b1 (ix1 k))
    (fun k c => W2 (ix2 k c)) (fun c => b2 (ix1 c)) (chan q) (comp q)

/-- The displacement array: one function of the feature array, the centred positions and the four parameter arrays. -/
def dispArray (feat : (⟨2, ![1000000, 64]⟩ : Shape).Idx → EReal) (pos : (⟨2, ![1000000, 3]⟩ : Shape).Idx → EReal)
    (W1 : (⟨2, ![64, 64]⟩ : Shape).Idx → EReal) (b1 : (⟨1, ![64]⟩ : Shape).Idx → EReal)
    (W2 : (⟨2, ![64, 4]⟩ : Shape).Idx → EReal) (b2 : (⟨1, ![4]⟩ : Shape).Idx → EReal) :
    (⟨2, ![1000000, 12]⟩ : Shape).Idx → EReal :=
  fun i => dispAt feat pos W1 b1 W2 b2 ⟨(i 0).val, (i 0).isLt⟩ ⟨(i 1).val, (i 1).isLt⟩

theorem dispArray_ix2 (feat : (⟨2, ![1000000, 64]⟩ : Shape).Idx → EReal) (pos : (⟨2, ![1000000, 3]⟩ : Shape).Idx → EReal)
    (W1 : (⟨2, ![64, 64]⟩ : Shape).Idx → EReal) (b1 : (⟨1, ![64]⟩ : Shape).Idx → EReal)
    (W2 : (⟨2, ![64, 4]⟩ : Shape).Idx → EReal) (b2 : (⟨1, ![4]⟩ : Shape).Idx → EReal) (n : Fin 1000000) (q : Fin 12) :
    dispArray feat pos W1 b1 W2 b2 (ix2 n q) = dispAt feat pos W1 b1 W2 b2 n q := rfl

end Cert.VNode

end
-- ==== Proof.BlockLayout.lean ====
/-
  The five re-layouts of the body, each read at coordinates.

  A block of m rows holds, per row, four channel weights [m, 4] and three position components [m, 3].  The body adds a
  trailing unit axis to the first ([m, 4, 1]) and a middle one to the second ([m, 1, 3]), broadcasts both to [m, 4, 3],
  multiplies, and flattens the last two axes to [m, 12].  Read at (p, q) the flattened array is the [m, 4, 3] array at
  (p, q / 3, q % 3); the two broadcasts read the operand at the unit coordinate; the two unit-axis casts forget it.
-/
import Idealize.ShloMosaic.Lib.Pipeline.Value
import Idealize.ShloMosaic.Lib.ValueIdx
import proofs.«165557_j24927990186019_1_alg».proof.Proof.NodeWeights

noncomputable section

namespace Cert.VNode

open Idealize.ShloMosaic Idealize.ShloMosaic.ValueIdx

variable {α : Type}

/-- [m, 4, 3] flattened to [m, 12]: entry (p, q) is entry (p, q / 3, q % 3). -/
theorem flatten_apply {m : ℕ} (x : (⟨3, ![m, 4, 3]⟩ : Shape).Idx → α)
    (h : (⟨3, ![m, 4, 3]⟩ : Shape).ShapeCasts ⟨2, ![m, 12]⟩) (p : Fin m) (q : Fin 12) :
    shapeCast ⟨2, ![m, 12]⟩ x h (ix2 p q) = x (ix3 p (chan q) (comp q)) :=
  shapeCast_apply x h _ _ (by
    rw [Shape.rowMajor_val_three, Shape.rowMajor_val_two]
    show (p.val * 4 + q.val / 3) * 3 + q.val % 3 = p.val * 12 + q.val
    have := q.isLt
    omega)

/-- [m, 4] with a trailing unit axis: entry (p, c, u) is entry (p, c). -/
theorem addLast_apply {m : ℕ} (x : (⟨2, ![m, 4]⟩ : Shape).Idx → α)
    (h : (⟨2, ![m, 4]⟩ : Shape).ShapeCasts ⟨3, ![m, 4, 1]⟩) (p : Fin m) (c : Fin 4) (u : Fin 1) :
    shapeCast ⟨3, ![m, 4, 1]⟩ x h (ix3 p c u) = x (ix2 p c) :=
  shapeCast_apply x h _ _ (by
    rw [Shape.rowMajor_val_three, Shape.rowMajor_val_two]
    show p.val * 4 + c.val = (p.val * 4 + c.val) * 1 + u.val
    have := u.isLt
    omega)

/-- [m, 3] with a middle unit axis: entry (p, u, d) is entry (p, d). -/
theorem addMiddle_apply {m : ℕ} (x : (⟨2, ![m, 3]⟩ : Shape).Idx → α)
    (h : (⟨2, ![m, 3]⟩ : Shape).ShapeCasts ⟨3, ![m, 1, 3]⟩) (p : Fin m) (u : Fin 1) (d : Fin 3) :
    shapeCast ⟨3, ![m, 1, 3]⟩ x h (ix3 p u d) = x (ix2 p d) :=
  shapeCast_apply x h _ _ (by
    rw [Shape.rowMajor_val_three, Shape.rowMajor_val_two]
    show p.val * 3 + d.val = (p.val * 1 + u.val) * 3 + d.val
    have := u.isLt
    omega)

/-- [m, 4, 1] broadcast along its last axis to [m, 4, 3]: entry (p, c, d) is entry (p, c, 0). -/
theorem spreadLast_apply {m : ℕ} (x : (⟨3, ![m, 4, 1]⟩ : Shape).Idx → α)
    (h : (⟨3, ![m, 4, 1]⟩ : Shape).Broadcasts ⟨3, ![m, 4, 3]⟩) (p : Fin m) (c : Fin 4) (d : Fin 3) :
    broadcastTo ⟨3, ![m, 4, 3]⟩ x h (ix3 p c d) = x (ix3 p c (0 : Fin 1)) := by
  refine broadcastTo_apply x h (ix3 p c d) (ix3 p c (0 : Fin 1)) fun ax => ?_
  match ax with
  | ⟨0, _⟩ =>
    show p.val = if m = 1 then 0 else p.val
    split
    · have := p.isLt; omega
    · rfl
  | ⟨1, _⟩ => rfl
  | ⟨2, _⟩ => rfl

/-- [m, 1, 3] broadcast along its middle axis to [m, 4, 3]: entry (p, c, d) is entry (p, 0, d). -/
theorem spreadMiddle_apply {m : ℕ} (x : (⟨3, ![m, 1, 3]⟩ : Shape).Idx → α)
    (h : (⟨3, ![m, 1, 3]⟩ : Shape).Broadcasts ⟨3, ![m, 4, 3]⟩) (p : Fin m) (c : Fin 4) (d : Fin 3) :
    broadcastTo ⟨3, ![m, 4, 3]⟩ x h (ix3 p c d) = x (ix3 p (0 : Fin 1) d) := by
  refine broadcastTo_apply x h (ix3 p c d) (ix3 p (0 : Fin 1) d) fun ax => ?_
  match ax with
  | ⟨0, _⟩ =>
    show p.val = if m = 1 then 0 else p.val
    split
    · have := p.isLt; omega
    · rfl
  | ⟨1, _⟩ => rfl
  | ⟨2, _⟩ => rfl

end Cert.VNode

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.BodyValue.lean ====
/-
  What the body stores, read at one entry.

  The body's one store writes a [20000, 12] block computed from the six loaded blocks.  Read at row p and entry q it is
  the displacement entry (channel q / 3, component q % 3) of the node whose features are row p of the feature block and
  whose centred position is row p of the position block: the two matrix products into zero accumulators are plain sums
  over the contracted coordinate, the roundings to the narrow float format are the identity on extended reals, the two
  bias rows are read at their one row, and the re-layouts only move coordinates.
-/
import proofs.«165557_j24927990186019_1_alg».proof.Proof.Gen.KernelIdeal.Skeleton
import proofs.«165557_j24927990186019_1_alg».proof.Proof.NodeWeights
import proofs.«165557_j24927990186019_1_alg».proof.Proof.BlockLayout
import proofs.«165557_j24927990186019_1_alg».proof.Proof.LibPlainMatmul
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.VNode

/-- The first product's dimension numbers are the plain rows-by-columns ones. -/
theorem dims_hidden : dot_S20000x64_S64x64_S20000x64_1_0_0_1_n_n = DotDims.plain 20000 64 64 := rfl
/-- So are the second product's. -/
theorem dims_weight : dot_S20000x64_S64x4_S20000x4_1_0_0_1_n_n = DotDims.plain 20000 64 4 := rfl

/-- The logistic function applied to a vector, read at an index. -/
theorem logistic_apply {s : Shape} {φ : FTy} (x : FVec Ideal s φ) (i : s.Idx) : logistic x i = Ideal.logistic (x i) := rfl

/-- The stored block at (p, q): the node of row p, channel q / 3, component q % 3. -/
theorem stored_at (v0 : Vec Ideal S20000x64 .f32) (v2 : Vec Ideal S64x64 .f32) (v5 : Vec Ideal S1x64 .f32)
    (v12 : Vec Ideal S64x4 .f32) (v15 : Vec Ideal S1x4 .f32) (v19 : Vec Ideal S20000x3 .f32) (p : Fin 20000) (q : Fin 12) :
    k0_pay1 (F := Ideal) v0 v2 v5 v12 v15 v19 (ix2 p q)
      = nodeDisp (fun l => v0 (ix2 p l)) (fun d => v19 (ix2 p d)) (fun l k => v2 (ix2 l k))
          (fun k => v5 (ix2 (0 : Fin 1) k)) (fun k c => v12 (ix2 k c)) (fun c => v15 (ix2 (0 : Fin 1) c))
          (chan q) (comp q) := by
  unfold k0_pay1
  simp only [dims_hidden, dims_weight, flatten_apply, mulf_apply, spreadLast_apply, spreadMiddle_apply, addLast_apply,
    addMiddle_apply, shapeCast_self, addf_apply, Cert.Lib.matmul_plain_zero_apply, broadcastTo_1b_ab_apply,
    truncf_apply, logistic_apply]
  rfl

end Cert.KernelIdeal.BodyValue

end
-- ==== Proof.RegionArray.lean ====
/-
  The array the region leaves: the displacement array of all 1000000 nodes.

  The grid has 50 points; point t stages rows 20000·t … 20000·t + 19999 of the feature array and of the centred
  positions, the four parameter arrays whole, and writes back the same rows of the result.  Rows are independent — a
  node's displacement depends on that node's feature row and position row only — so what point t writes back is exactly
  block t of ONE array function (`regionArray`), and the 50 blocks tile the array: it ends holding that function.
-/
import proofs.«165557_j24927990186019_1_alg».proof.Proof.Gen.KernelIdeal.Frame
import proofs.«165557_j24927990186019_1_alg».proof.Proof.BodyValue
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx Cert.VNode
open Idealize.ShloMosaic.Pipeline (Dat)

variable (m : (ℓ : Loc nD τ sig) → Buf (Elt Ideal) ℓ)

/-- A one-row array read as a vector. -/
def rowVec {n : ℕ} (r : (⟨2, ![1, n]⟩ : Shape).Idx → EReal) : (⟨1, ![n]⟩ : Shape).Idx → EReal :=
  fun i => r (ix2 (0 : Fin 1) (⟨(i 0).val, (i 0).isLt⟩ : Fin n))

/-- The displacement array of the arrays the region finds: features, centred positions, the two weight matrices and the
    two bias rows. -/
def regionArray (c : Dev nD) : S1000000x12.Idx → Elt Ideal .f32 :=
  dispArray (V m c main_arg0) (V m c main_v18) (V m c main_arg3) (rowVec (V m c main_v19))
    (V m c main_arg5) (rowVec (V m c main_v20))

theorem zeros : (![0, 0] : Fin 2 → Nat) = fun _ => 0 := funext fun a => by fin_cases a <;> rfl

/-- The index maps over the grid: the three row-blocked windows sit at block t, the four parameter windows at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 50 := lt_of_lt_of_eq t.isLt N_0

/-- Row p of block t is row 20000·t + p of the array. -/
def rowOf (t : Fin cfg0.N) (p : Fin 20000) : Fin 1000000 :=
  ⟨t.val * 20000 + p.val, by have := point_lt t; have := p.isLt; omega⟩

/-- Two functions on a [20000, 12] block are equal when they agree at every (p, q). -/
theorem block_ext (f g : S20000x12.Idx → EReal) (h : ∀ (p : Fin 20000) (q : Fin 12), f (ix2 p q) = g (ix2 p q)) : f = g :=
  funext fun j => by rw [eq_ix2 j]; exact h _ _

/-! ## The staged blocks, read at the array -/

theorem features_at (c : Dev nD) (t : Fin cfg0.N) (p : Fin 20000) (l : Fin 64) :
    iblk m c 0 t (ix2 p l) = V m c main_arg0 (ix2 (rowOf t p) l) := by
  show V m c main_arg0 (((cfg0.win 0).blk t).view.emb (ix2 p l)) = _
  refine congrArg (V m c main_arg0) (funext fun a => Fin.ext ?_)
  obtain ⟨e0, e1, -⟩ := index_maps t
  match a with
  | ⟨0, _⟩ => show win0_0.index t (0 : Fin 2) * 20000 + 1 * p.val = t.val * 20000 + p.val; omega
  | ⟨1, _⟩ => show win0_0.index t (1 : Fin 2) * 64 + 1 * l.val = l.val; omega

theorem positions_at (c : Dev nD) (t : Fin cfg0.N) (p : Fin 20000) (d : Fin 3) :
    iblk m c 1 t (ix2 p d) = V m c main_v18 (ix2 (rowOf t p) d) := by
  show V m c main_v18 (((cfg0.win 1).blk t).view.emb (ix2 p d)) = _
  refine congrArg (V m c main_v18) (funext fun a => Fin.ext ?_)
  obtain ⟨-, -, e0, e1, -⟩ := index_maps t
  match a with
  | ⟨0, _⟩ => show win0_1.index t (0 : Fin 2) * 20000 + 1 * p.val = t.val * 20000 + p.val; omega
  | ⟨1, _⟩ => show win0_1.index t (1 : Fin 2) * 3 + 1 * d.val = d.val; omega

theorem hiddenWeights_at (c : Dev nD) (t : Fin cfg0.N) (l k : Fin 64) :
    iblk m c 2 t (ix2 l k) = V m c main_arg3 (ix2 l k) := by
  show V m c main_arg3 (((cfg0.win 2).blk t).view.emb (ix2 l k)) = _
  refine congrArg (V m c main_arg3) (funext fun a => Fin.ext ?_)
  obtain ⟨-, -, -, -, e0, e1, -⟩ := index_maps t
  match a with
  | ⟨0, _⟩ => show win0_2.index t (0 : Fin 2) * 64 + 1 * l.val = l.val; omega
  | ⟨1, _⟩ => show win0_2.index t (1 : Fin 2) * 64 + 1 * k.val = k.val; omega

theorem hiddenBias_at (c : Dev nD) (t : Fin cfg0.N) (k : Fin 64) :
    iblk m c 3 t (ix2 (0 : Fin 1) k) = V m c main_v19 (ix2 (0 : Fin 1) k) := by
  show V m c main_v19 (((cfg0.win 3).blk t).view.emb (ix2 (0 : Fin 1) k)) = _
  refine congrArg (V m c main_v19) (funext fun a => Fin.ext ?_)
  obtain ⟨-, -, -, -, -, -, e0, e1, -⟩ := index_maps t
  match a with
  | ⟨0, _⟩ => show win0_3.index t (0 : Fin 2) * 1 + 1 * 0 = 0; omega
  | ⟨1, _⟩ => show win0_3.index t (1 : Fin 2) * 64 + 1 * k.val = k.val; omega

theorem outWeights_at (c : Dev nD) (t : Fin cfg0.N) (k : Fin 64) (ch : Fin 4) :
    iblk m c 4 t (ix2 k ch) = V m c main_arg5 (ix2 k ch) := by
  show V m c main_arg5 (((cfg0.win 4).blk t).view.emb (ix2 k ch)) = _
  refine congrArg (V m c main_arg5) (funext fun a => Fin.ext ?_)
  obtain ⟨-, -, -, -, -, -, -, -, e0, e1, -⟩ := index_maps t
  match a with
  | ⟨0, _⟩ => show win0_4.index t (0 : Fin 2) * 64 + 1 * k.val = k.val; omega
  | ⟨1, _⟩ => show win0_4.index t (1 : Fin 2) * 4 + 1 * ch.val = ch.val; omega

theorem outBias_at (c : Dev nD) (t : Fin cfg0.N) (ch : Fin 4) :
    iblk m c 5 t (ix2 (0 : Fin 1) ch) = V m c main_v20 (ix2 (0 : Fin 1) ch) := by
  show V m c main_v20 (((cfg0.win 5).blk t).view.emb (ix2 (0 : Fin 1) ch)) = _
  refine congrArg (V m c main_v20) (funext fun a => Fin.ext ?_)
  obtain ⟨-, -, -, -, -, -, -, -, -, -, e0, e1, -⟩ := index_maps t
  match a with
  | ⟨0, _⟩ => show win0_5.index t (0 : Fin 2) * 1 + 1 * 0 = 0; omega
  | ⟨1, _⟩ => show win0_5.index t (1 : Fin 2) * 4 + 1 * ch.val = ch.val; omega

/-- Entry (p, q) of the result's block t is entry (20000·t + p, q) of the array. -/
theorem result_emb (t : Fin cfg0.N) (p : Fin 20000) (q : Fin 12) :
    (((cfg0.win 6).blk t).view.emb (ix2 p q) : S1000000x12.Idx) = ix2 (rowOf t p) q := by
  refine funext fun a => Fin.ext ?_
  obtain ⟨-, -, -, -, -, -, -, -, -, -, -, -, e0, e1⟩ := index_maps t
  match a with
  | ⟨0, _⟩ => show win0_6.index t (0 : Fin 2) * 20000 + 1 * p.val = t.val * 20000 + p.val; omega
  | ⟨1, _⟩ => show win0_6.index t (1 : Fin 2) * 12 + 1 * q.val = q.val; omega

/-! ## What a point writes back, the cover, the array -/

/-- Point t writes back block t of the displacement array. -/
theorem flushed_eq (c : Dev nD) (t : Fin cfg0.N) :
    (dats m 0 c).flushed 6 t = ((cfg0.win 6).blk t).view.read (Elt Ideal) (regionArray m c) := by
  show (cfg0.win 6).cut (grid0.coords t) ((dats m 0 c).after 6 t) = _
  rw [after0_6]
  unfold out0_6
  rw [View.canon_unit_zero zeros]
  simp only [View.ld_unit_zero (S := S20000x64) zeros, View.ld_unit_zero (S := S64x64) zeros,
    View.ld_unit_zero (S := S1x64) zeros, View.ld_unit_zero (S := S64x4) zeros, View.ld_unit_zero (S := S1x4) zeros,
    View.ld_unit_zero (S := S20000x3) zeros]
  refine block_ext _ _ fun p q => ?_
  show k0_pay1 (iblk m c 0 t) (iblk m c 2 t) (iblk m c 3 t) (iblk m c 4 t) (iblk m c 5 t) (iblk m c 1 t) (ix2 p q)
    = regionArray m c (((cfg0.win 6).blk t).view.emb (ix2 p q))
  refine (BodyValue.stored_at (iblk m c 0 t) (iblk m c 2 t) (iblk m c 3 t) (iblk m c 4 t) (iblk m c 5 t) (iblk m c 1 t) p q).trans ?_
  rw [result_emb t p q]
  simp only [features_at, positions_at, hiddenWeights_at, hiddenBias_at, outWeights_at, outBias_at]
  rfl

/-- An index of the array is in point t's block iff each coordinate is in the block's range on its axis. -/
theorem mem_block (t : Fin cfg0.N) (i : S1000000x12.Idx) :
    i ∈ ((cfg0.win 6).blk t).view.set ↔ ∀ a : Fin 2, win0_6.index t a * S20000x12.size a ≤ (i a).val ∧ (i a).val < win0_6.index t a * S20000x12.size a + S20000x12.size a := by
  show i ∈ ((View.whole main_v21).slice (win0_6.rect t)).set ↔ _
  rw [View.set_slice_whole, Rect.mem_set_unit]
  exact Iff.rfl

/-- Every index of the array is in the block of the point that holds its row: point (row / 20000). -/
theorem covered (i : S1000000x12.Idx) :
    ∃ t : Fin cfg0.N, (cfg0.win 6).flush t = true ∧ i ∈ ((cfg0.win 6).blk t).view.set := by
  have hi0 : (i 0).val < 1000000 := (i 0).isLt
  have hi1 : (i 1).val < 12 := (i 1).isLt
  have hN : cfg0.N = 50 := N_0
  refine ⟨⟨(i 0).val / 20000, by rw [hN]; omega⟩, flush0_6 _, ?_⟩
  rw [mem_block]
  obtain ⟨-, -, -, -, -, -, -, -, -, -, -, -, e0, e1⟩ := index_maps ⟨(i 0).val / 20000, by rw [hN]; omega⟩
  intro a
  match a with
  | ⟨0, _⟩ =>
    show win0_6.index ⟨(i 0).val / 20000, _⟩ (0 : Fin 2) * 20000 ≤ (i 0).val ∧ (i 0).val < win0_6.index ⟨(i 0).val / 20000, _⟩ (0 : Fin 2) * 20000 + 20000
    rw [e0]; show (i 0).val / 20000 * 20000 ≤ (i 0).val ∧ (i 0).val < (i 0).val / 20000 * 20000 + 20000; omega
  | ⟨1, _⟩ =>
    show win0_6.index ⟨(i 0).val / 20000, _⟩ (1 : Fin 2) * 12 ≤ (i 1).val ∧ (i 1).val < win0_6.index ⟨(i 0).val / 20000, _⟩ (1 : Fin 2) * 12 + 12
    rw [e1]; omega

/-- The result array after the region: the displacement array. -/
theorem final (c : Dev nD) : (dats m 0 c).arrAt 6 cfg0.N = regionArray m c :=
  (dats m 0 c).arrAt_eq_of_cover 6 (regionArray m c) (fun t _ => flushed_eq m c t) covered

end Cert.KernelIdeal.RegionValue

end
-- ==== Proof.GraphMeans.lean ====
/-
  From per-node displacements to the per-graph result, as ONE function.

  Both programs finish in the same way.  The 12 displacement entries of the nodes of each of the 1024 graphs are summed
  (a scatter-add over the batch indices) and divided by the graph's clipped node count; each graph's [4, 3] mean is
  divided, channel by channel, by the larger of its Euclidean length and a small floor; and the graph's centre is added
  to every channel.  `perGraph` is that chain of host operations applied to the batch indices, the clipped counts, the
  centres and ANY displacement array: it is never opened — the two programs are compared on what they feed it.

  The reference's result is `perGraph` of its own intermediate arrays (its clipped counts, its centres, its flattened
  product array): the operations are the same ones in the same order.
-/
import proofs.«165557_j24927990186019_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem

variable {F : FTy → Type} [FloatOps F]

/-- The per-graph result from the batch indices `x2`, the clipped node counts, the centres and a displacement array. -/
def perGraph (x2 : (⟨S1000000, .i32⟩ : BufTy).Contents (Elt F)) (counts : (⟨S1024, .f32⟩ : BufTy).Contents (Elt F))
    (centres : (⟨S1024x3, .f32⟩ : BufTy).Contents (Elt F)) (disp : (⟨S1000000x12, .f32⟩ : BufTy).Contents (Elt F)) :
    (⟨S1024x12, .f32⟩ : BufTy).Contents (Elt F) :=
  have total : (⟨S1024x12, .f32⟩ : BufTy).Contents (Elt F) :=
    Host.scatterAdd scatter_S1024x12_S1000000x1_S1000000x12_1_0_0_1
      (broadcastInDim S1024x12 ![] bcast_S_S1024x12 (constant (F := F) S_ .f32 0x00000000#32))
      (broadcastInDim S1000000x1 ![0] bcast_S1000000_S1000000x1_0 x2) disp
  have mean : (⟨S1024x4x3, .f32⟩ : BufTy).Contents (Elt F) :=
    shapeCast S1024x4x3 (Host.divf (F := F) total (broadcastInDim S1024x12 ![0, 1] bcast_S1024x1_S1024x12_0_1
      (broadcastInDim S1024x1 ![0] bcast_S1024_S1024x1_0 counts))) shapeCasts_S1024x12_S1024x4x3
  have length : (⟨S1024x4x1, .f32⟩ : BufTy).Contents (Elt F) :=
    Host.sqrt (F := F) (broadcastInDim S1024x4x1 ![0, 1] bcast_S1024x4_S1024x4x1_0_1
      (Host.reduceAdd (F := F) (mulf mean mean) (constant (F := F) S_ .f32 0x00000000#32) reducesTo_S1024x4x3_S1024x4_d2 h_S_))
  have floored : (⟨S1024x4x1, .f32⟩ : BufTy).Contents (Elt F) :=
    maximumf (broadcastInDim S1024x4x1 ![] bcast_S_S1024x4x1 (id (constant (F := F) S_ .f32 0x322BCC77#32))) length
  addf (shapeCast S1024x12 (Host.divf (F := F) mean (broadcastInDim S1024x4x3 ![0, 1, 2] bcast_S1024x4x1_S1024x4x3_0_1_2 floored))
      shapeCasts_S1024x4x3_S1024x12)
    (shapeCast S1024x12 (broadcastInDim S1x1024x4x3 ![0, 1, 2, 3] bcast_S1x1024x1x3_S1x1024x4x3_0_1_2_3
      (shapeCast S1x1024x1x3 centres shapeCasts_S1024x3_S1x1024x1x3)) shapeCasts_S1x1024x4x3_S1024x12)

set_option maxHeartbeats 400000 in
/-- The reference's last operations are `perGraph` of its clipped counts, its centres and its flattened product array. -/
theorem stages_eq (x0 : (⟨S1000000x64, .f32⟩ : BufTy).Contents (Elt F)) (x1 : (⟨S1000000x3, .f32⟩ : BufTy).Contents (Elt F))
    (x2 : (⟨S1000000, .i32⟩ : BufTy).Contents (Elt F)) (x3 : (⟨S64x64, .f32⟩ : BufTy).Contents (Elt F))
    (x4 : (⟨S64, .f32⟩ : BufTy).Contents (Elt F)) (x5 : (⟨S64x4, .f32⟩ : BufTy).Contents (Elt F))
    (x6 : (⟨S4, .f32⟩ : BufTy).Contents (Elt F)) :
    val_main_v54 (F := F) x0 x1 x2 x3 x4 x5 x6
      = perGraph x2 (val_main_v7 (F := F) x2) (val_main_v10 (F := F) x1 x2) (val_main_v33 (F := F) x0 x1 x2 x3 x4 x5 x6) := rfl

end Cert.ReferenceIdeal.RefValue

end
-- ==== Proof.KernelHost.lean ====
/-
  The kernel's program around its region, and its run with the result named.

  Before the region the host computes, from the positions and the batch indices, the clipped node counts, the centres
  and the centred positions, and reshapes the two bias vectors to one-row arrays; these are the very operations the
  reference applies, so the arrays the region finds are the reference's intermediate arrays of the same arguments.
  After the region the host applies `perGraph` to the batch indices, those counts and centres, and the array the region
  left — the displacement array (`RegionValue.final`).  So the kernel's result is `perGraph` of the displacement array
  of the launch contents.
-/
import proofs.«165557_j24927990186019_1_alg».proof.Proof.Gen.KernelIdeal.Frame
import proofs.«165557_j24927990186019_1_alg».proof.Proof.RegionArray
import proofs.«165557_j24927990186019_1_alg».proof.Proof.GraphMeans
import Idealize.ShloMosaic.Lib.StableHlo.Run
import Idealize.ShloMosaic.Lib.ValueLayout

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.VNode
open Cert.KernelIdeal.RegionValue
open Idealize.ShloMosaic.Pipeline (Dat)

variable (m : (ℓ : Loc nD τ sig) → Buf (Elt Ideal) ℓ) (ρ : Dev nD → PrngReg)

/-! ## Contents at a value's type and at its buffer's type

A called function's operations move contents between a value's type and its buffer's type.  The two types are the same
by computation, so each move is the identity; stated once per buffer over an arbitrary payload, and used to remove the
moves from an evaluated term before it is compared with anything. -/

/-- To the buffer's type and back. -/
theorem there_back {T : BufTy} (x : TRef sig T) (v : T.Contents (Elt Ideal)) : x.ofBuf (x.toBuf v) = v := by
  unfold TRef.ofBuf TRef.toBuf
  rw [cast_cast]
  exact cast_eq _ _

theorem to_counts (p1 p2 p3) (v : (⟨S1024, .f32⟩ : BufTy).Contents (Elt Ideal)) :
    (TRef.of (sig := sig) (T := ⟨S1024, .f32⟩) main_v4 p1 p2 p3).toBuf (Val := Elt Ideal) v = v := rfl
theorem of_rawCounts (p1 p2 p3) (v : (⟨S1024, .f32⟩ : BufTy).Contents (Elt Ideal)) :
    (TRef.of (sig := sig) (T := ⟨S1024, .f32⟩) main_v3 p1 p2 p3).ofBuf (Val := Elt Ideal) v = v := rfl
theorem of_one (p1 p2 p3) (v : (⟨S_, .f32⟩ : BufTy).Contents (Elt Ideal)) :
    (TRef.of (sig := sig) (T := ⟨S_, .f32⟩) main_cst_1 p1 p2 p3).ofBuf (Val := Elt Ideal) v = v := rfl
theorem to_floored (p1 p2 p3) (v : (⟨S1024x4x1, .f32⟩ : BufTy).Contents (Elt Ideal)) :
    (TRef.of (sig := sig) (T := ⟨S1024x4x1, .f32⟩) main_v30 p1 p2 p3).toBuf (Val := Elt Ideal) v = v := rfl
theorem of_floor (p1 p2 p3) (v : (⟨S_, .f32⟩ : BufTy).Contents (Elt Ideal)) :
    (TRef.of (sig := sig) (T := ⟨S_, .f32⟩) main_cst_5 p1 p2 p3).ofBuf (Val := Elt Ideal) v = v := rfl
theorem of_mean (p1 p2 p3) (v : (⟨S1024x4x3, .f32⟩ : BufTy).Contents (Elt Ideal)) :
    (TRef.of (sig := sig) (T := ⟨S1024x4x3, .f32⟩) main_v28 p1 p2 p3).ofBuf (Val := Elt Ideal) v = v := rfl

/-! ## The arrays the region finds -/

/-- The centred positions the region stages are the reference's centred positions of the same arguments. -/
theorem positions_eq (c : Dev nD) :
    V m c main_v18 = Cert.ReferenceIdeal.Read.val_main_v18 (F := Ideal) (m ((c.tc : Thread nD τ).loc main_arg1)) (m ((c.tc : Thread nD τ).loc main_arg2)) := by
  dsimp only [V, V0]
  simp only [hostOps0, hostOps0_1, hostOps0_2, List.flatten_cons, List.flatten_nil, List.append_nil, List.cons_append, List.nil_append]
  after_results_simp
  simp -implicitDefEqProofs only [there_back, to_counts, of_rawCounts, of_one]
  rfl

/-- The clipped node counts. -/
theorem counts_eq (c : Dev nD) :
    V m c main_v4 = Cert.ReferenceIdeal.Read.val_main_v7 (F := Ideal) (m ((c.tc : Thread nD τ).loc main_arg2)) := by
  dsimp only [V, V0]
  simp only [hostOps0, hostOps0_1, hostOps0_2, List.flatten_cons, List.flatten_nil, List.append_nil, List.cons_append, List.nil_append]
  after_results_simp
  simp -implicitDefEqProofs only [there_back, to_counts, of_rawCounts, of_one]
  rfl

/-- The centres. -/
theorem centres_eq (c : Dev nD) :
    V m c main_v10 = Cert.ReferenceIdeal.Read.val_main_v10 (F := Ideal) (m ((c.tc : Thread nD τ).loc main_arg1)) (m ((c.tc : Thread nD τ).loc main_arg2)) := by
  dsimp only [V, V0]
  simp only [hostOps0, hostOps0_1, hostOps0_2, List.flatten_cons, List.flatten_nil, List.append_nil, List.cons_append, List.nil_append]
  after_results_simp
  simp -implicitDefEqProofs only [there_back, to_counts, of_rawCounts, of_one]
  rfl

/-- The hidden layer's bias as a one-row array. -/
theorem hiddenBias_eq (c : Dev nD) :
    (V m c main_v19 : S1x64.Idx → EReal) = shapeCast S1x64 (m ((c.tc : Thread nD τ).loc main_arg4)) shapeCasts_S64_S1x64 := by
  dsimp only [V, V0]
  simp only [hostOps0, hostOps0_1, hostOps0_2, List.flatten_cons, List.flatten_nil, List.append_nil, List.cons_append, List.nil_append]
  after_results_simp
  rfl

/-- The output layer's bias as a one-row array. -/
theorem outBias_eq (c : Dev nD) :
    (V m c main_v20 : S1x4.Idx → EReal) = shapeCast S1x4 (m ((c.tc : Thread nD τ).loc main_arg6)) shapeCasts_S4_S1x4 := by
  dsimp only [V, V0]
  simp only [hostOps0, hostOps0_1, hostOps0_2, List.flatten_cons, List.flatten_nil, List.append_nil, List.cons_append, List.nil_append]
  after_results_simp
  rfl

/-- A vector reshaped to one row and read back as a vector is the vector. -/
theorem rowVec_cast {n : ℕ} (x : (⟨1, ![n]⟩ : Shape).Idx → EReal) (h : (⟨1, ![n]⟩ : Shape).ShapeCasts ⟨2, ![1, n]⟩) :
    rowVec (shapeCast ⟨2, ![1, n]⟩ x h) = x := by
  funext i
  rw [eq_ix1 i]
  exact shapeCast_a_1a_apply x h (0 : Fin 1) _

/-- The array the region leaves is the displacement array of the LAUNCH contents and the reference's centred positions. -/
theorem region_eq (c : Dev nD) :
    regionArray m c = dispArray (m ((c.tc : Thread nD τ).loc main_arg0))
      (Cert.ReferenceIdeal.Read.val_main_v18 (F := Ideal) (m ((c.tc : Thread nD τ).loc main_arg1)) (m ((c.tc : Thread nD τ).loc main_arg2)))
      (m ((c.tc : Thread nD τ).loc main_arg3)) (m ((c.tc : Thread nD τ).loc main_arg4))
      (m ((c.tc : Thread nD τ).loc main_arg5)) (m ((c.tc : Thread nD τ).loc main_arg6)) := by
  unfold regionArray
  rw [V_main_arg0, positions_eq, V_main_arg3, hiddenBias_eq, V_main_arg5, outBias_eq, rowVec_cast, rowVec_cast]

/-! ## The lines after the region -/

/-- The kernel's result, as a function of the launch contents. -/
def result (c : Dev nD) : Buf (Elt Ideal) ((c.tc : Thread nD τ).loc main_v37) :=
  Cert.ReferenceIdeal.RefValue.perGraph (F := Ideal) (m ((c.tc : Thread nD τ).loc main_arg2))
    (Cert.ReferenceIdeal.Read.val_main_v7 (F := Ideal) (m ((c.tc : Thread nD τ).loc main_arg2)))
    (Cert.ReferenceIdeal.Read.val_main_v10 (F := Ideal) (m ((c.tc : Thread nD τ).loc main_arg1)) (m ((c.tc : Thread nD τ).loc main_arg2)))
    (dispArray (m ((c.tc : Thread nD τ).loc main_arg0))
      (Cert.ReferenceIdeal.Read.val_main_v18 (F := Ideal) (m ((c.tc : Thread nD τ).loc main_arg1)) (m ((c.tc : Thread nD τ).loc main_arg2)))
      (m ((c.tc : Thread nD τ).loc main_arg3)) (m ((c.tc : Thread nD τ).loc main_arg4))
      (m ((c.tc : Thread nD τ).loc main_arg5)) (m ((c.tc : Thread nD τ).loc main_arg6)))

set_option maxHeartbeats 1000000 in
/-- The lines after the region apply `perGraph` to the batch indices, the counts and centres computed before the region,
    and the region's output array. -/
theorem tail_eq (c : Dev nD) :
    Pipeline.afterTail₀ cfgs (dats m) 0 (V0 m) [hostOps1, hostOps1_1, hostOps1_2, hostOps1_3, hostOps1_4] c main_v37
      = Cert.ReferenceIdeal.RefValue.perGraph (F := Ideal) (V m c main_arg2) (V m c main_v4) (V m c main_v10) ((dats m 0 c).arrAt 6 cfg0.N) := by
  unfold Pipeline.afterTail₀
  have eOut : Pipeline.withArrays (cfgs 0).spec c (V0 m c) (fun w => (dats m 0 c).arrAt w (cfgs 0).N) (Proc.devRef .tc main_v21)
      = (dats m 0 c).arrAt 6 cfg0.N := Pipeline.withArrays_arr spec0 launch0.win.arr_inj c _ _ 6
  have eBatch : Pipeline.withArrays (cfgs 0).spec c (V0 m c) (fun w => (dats m 0 c).arrAt w (cfgs 0).N) (Proc.devRef .tc main_arg2)
      = V m c main_arg2 := Pipeline.withArrays_of_ne _ c (V0 m c) _ main_arg2 (by exact (by decide : ∀ w, Pipeline.arrRef spec0 w ≠ main_arg2))
  have eCounts : Pipeline.withArrays (cfgs 0).spec c (V0 m c) (fun w => (dats m 0 c).arrAt w (cfgs 0).N) (Proc.devRef .tc main_v4)
      = V m c main_v4 := Pipeline.withArrays_of_ne _ c (V0 m c) _ main_v4 (by exact (by decide : ∀ w, Pipeline.arrRef spec0 w ≠ main_v4))
  have eCentres : Pipeline.withArrays (cfgs 0).spec c (V0 m c) (fun w => (dats m 0 c).arrAt w (cfgs 0).N) (Proc.devRef .tc main_v10)
      = V m c main_v10 := Pipeline.withArrays_of_ne _ c (V0 m c) _ main_v10 (by exact (by decide : ∀ w, Pipeline.arrRef spec0 w ≠ main_v10))
  generalize Pipeline.withArrays (cfgs 0).spec c (V0 m c) (fun w => (dats m 0 c).arrAt w (cfgs 0).N) = W at eOut eBatch eCounts eCentres ⊢
  generalize (dats m 0 c).arrAt 6 cfg0.N = D at eOut ⊢
  generalize V m c main_arg2 = B at eBatch ⊢
  generalize V m c main_v4 = N at eCounts ⊢
  generalize V m c main_v10 = Z at eCentres ⊢
  simp only [hostOps1, hostOps1_1, hostOps1_2, hostOps1_3, hostOps1_4, List.flatten_cons, List.flatten_nil, List.append_nil, List.cons_append, List.nil_append]
  after_results_simp
  rw [eOut, eBatch, eCounts, eCentres]
  simp -implicitDefEqProofs only [there_back, to_floored, of_floor, of_mean]
  rfl

/-! ## The run -/

/-- Every weakly fair execution of the kernel's program terminates with the result at `result` and the arguments
    unchanged: the frame run, its post read at the result buffer and at the argument arrays. -/
theorem run : θ_run defs (onTc (τ := τ) (main (F := Ideal))) ⟨m, fun _ => 0, ρ⟩ fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v37 (Pipeline.mem_restRefs_of main_v37 (by decide) (by decide))).trans
        ((tail_eq m c).trans (by
          unfold result
          rw [V_main_arg2, counts_eq, centres_eq, RegionValue.final, region_eq])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c))⟩)
    (run_main m ρ)

end Cert.KernelIdeal.HostValue

end
-- ==== Proof.RefDisplacement.lean ====
/-
  The reference's displacement array is the same function of the same arrays.

  The reference computes, for all 1000000 nodes at once, h = feat · W1 + b1, s = h · (1 / (1 + exp (-h))), w = s · W2 + b2
  and w[:, :, None] · pos[:, None, :] flattened to [1000000, 12].  Read at (n, q) through its operations one at a time,
  that is the displacement entry (channel q / 3, component q % 3) of node n: the two host products are sums over the
  contracted coordinate, the quotient 1 / (1 + exp (-h)) IS the logistic function of the extended reals, and the
  broadcasts and the reshape only move coordinates.  The centred positions enter as they are (the reference's own
  intermediate array), so nothing about how they were computed is used.
-/
import proofs.«165557_j24927990186019_1_alg».proof.Proof.Gen.ReferenceIdeal.Read
import proofs.«165557_j24927990186019_1_alg».proof.Proof.NodeWeights

noncomputable section

namespace Cert.ReferenceIdeal.RefValue

open Cert.ReferenceIdeal Cert.ReferenceIdeal.Gen Cert.ReferenceIdeal.Read Idealize.ShloMosaic Idealize.ShloMosaic.ValueIdx Cert.VNode

/-- The float word of 1.0 is the real number one. -/
theorem one_word : Ideal.ofBits .f32 0x3F800000#32 = 1 := by
  simp [Ideal.ofBits, Ideal.ieee, -EReal.coe_mul]; norm_num

/-! ## Where each operation reads its operands -/

theorem at_flat (n : Fin 1000000) (q : Fin 12) : idx_main_v33 (ix2 n q) = ix3 n (chan q) (comp q) :=
  funext fun a => Fin.ext (by
    have := q.isLt
    match a with
    | ⟨0, _⟩ => show (n.val * 12 + q.val) / 12 = n.val; omega
    | ⟨1, _⟩ => show (n.val * 12 + q.val) / 3 % 4 = q.val / 3; omega
    | ⟨2, _⟩ => show (n.val * 12 + q.val) % 3 = q.val % 3; omega)

theorem at_spreadW (n : Fin 1000000) (c : Fin 4) (d : Fin 3) : idx_main_v30 (ix3 n c d) = ix3 n c (0 : Fin 1) :=
  funext fun a => Fin.ext (by match a with | ⟨0, _⟩ => rfl | ⟨1, _⟩ => rfl | ⟨2, _⟩ => rfl)

theorem at_unitW (n : Fin 1000000) (c : Fin 4) (u : Fin 1) : idx_main_v28 (ix3 n c u) = ix2 n c :=
  funext fun a => Fin.ext (by match a with | ⟨0, _⟩ => rfl | ⟨1, _⟩ => rfl)

theorem at_spreadP (n : Fin 1000000) (c : Fin 4) (d : Fin 3) : idx_main_v31 (ix3 n c d) = ix3 n (0 : Fin 1) d :=
  funext fun a => Fin.ext (by match a with | ⟨0, _⟩ => rfl | ⟨1, _⟩ => rfl | ⟨2, _⟩ => rfl)

theorem at_unitP (n : Fin 1000000) (u : Fin 1) (d : Fin 3) : idx_main_v29 (ix3 n u d) = ix2 n d :=
  funext fun a => Fin.ext (by match a with | ⟨0, _⟩ => rfl | ⟨1, _⟩ => rfl)

theorem at_outL (n : Fin 1000000) (c : Fin 4) (k : Fin 64) : lidx_main_v24 (ix2 n c) k = ix2 n k :=
  funext fun a => Fin.ext (by match a with | ⟨0, _⟩ => rfl | ⟨1, _⟩ => rfl)

theorem at_outR (n : Fin 1000000) (c : Fin 4) (k : Fin 64) : ridx_main_v24 (ix2 n c) k = ix2 k c :=
  funext fun a => Fin.ext (by match a with | ⟨0, _⟩ => rfl | ⟨1, _⟩ => rfl)

theorem at_outBiasRows (n : Fin 1000000) (c : Fin 4) : idx_main_v26 (ix2 n c) = ix2 (0 : Fin 1) c :=
  funext fun a => Fin.ext (by match a with | ⟨0, _⟩ => rfl | ⟨1, _⟩ => rfl)

theorem at_outBias (u : Fin 1) (c : Fin 4) : idx_main_v25 (ix2 u c) = ix1 c :=
  funext fun a => Fin.ext (by match a with | ⟨0, _⟩ => rfl)

theorem at_hidL (n : Fin 1000000) (k l : Fin 64) : lidx_main_v19 (ix2 n k) l = ix2 n l :=
  funext fun a => Fin.ext (by match a with | ⟨0, _⟩ => rfl | ⟨1, _⟩ => rfl)

theorem at_hidR (n : Fin 1000000) (k l : Fin 64) : ridx_main_v19 (ix2 n k) l = ix2 l k :=
  funext fun a => Fin.ext (by match a with | ⟨0, _⟩ => rfl | ⟨1, _⟩ => rfl)

theorem at_hidBiasRows (n : Fin 1000000) (k : Fin 64) : idx_main_v21 (ix2 n k) = ix2 (0 : Fin 1) k :=
  funext fun a => Fin.ext (by match a with | ⟨0, _⟩ => rfl | ⟨1, _⟩ => rfl)

theorem at_hidBias (u : Fin 1) (k : Fin 64) : idx_main_v20 (ix2 u k) = ix1 k :=
  funext fun a => Fin.ext (by match a with | ⟨0, _⟩ => rfl)

/-! ## The displacement array -/

/-- The reference's flattened product array is `dispArray` of the features, ITS centred positions and the parameters. -/
theorem disp_eq (x0 : (⟨S1000000x64, .f32⟩ : BufTy).Contents (Elt Ideal)) (x1 : (⟨S1000000x3, .f32⟩ : BufTy).Contents (Elt Ideal))
    (x2 : (⟨S1000000, .i32⟩ : BufTy).Contents (Elt Ideal)) (x3 : (⟨S64x64, .f32⟩ : BufTy).Contents (Elt Ideal))
    (x4 : (⟨S64, .f32⟩ : BufTy).Contents (Elt Ideal)) (x5 : (⟨S64x4, .f32⟩ : BufTy).Contents (Elt Ideal))
    (x6 : (⟨S4, .f32⟩ : BufTy).Contents (Elt Ideal)) :
    val_main_v33 (F := Ideal) x0 x1 x2 x3 x4 x5 x6 = dispArray x0 (val_main_v18 (F := Ideal) x1 x2) x3 x4 x5 x6 := by
  funext i
  obtain ⟨n, q, rfl⟩ : ∃ (n : Fin 1000000) (q : Fin 12), i = ix2 n q := ⟨i 0, i 1, eq_ix2 i⟩
  rw [dispArray_ix2, val_main_v33_apply, at_flat, val_main_v32_apply, val_main_v30_apply, at_spreadW, val_main_v28_apply,
    at_unitW, val_main_v31_apply, at_spreadP, val_main_v29_apply, at_unitP, val_main_v27_apply, val_main_v24_apply,
    val_main_v26_apply, at_outBiasRows, val_main_v25_apply, at_outBias]
  simp only [at_outL, at_outR, val_main_v23_apply, val_main_call1_v5_apply, val_main_call1_v4_apply,
    val_main_call1_cst_0_apply, val_main_call1_v3_apply, val_main_call1_v2_apply, val_main_call1_cst_apply,
    val_main_call1_v1_apply, val_main_call1_v0_apply, val_main_v22_apply, val_main_v19_apply, at_hidL, at_hidR,
    val_main_v21_apply, at_hidBiasRows, val_main_v20_apply, at_hidBias]
  show (((∑ k : Fin 64, _) + _) * _ : EReal) = _
  simp only [Ideal.ofBits_def, one_word]
  rfl

end Cert.ReferenceIdeal.RefValue

end
-- ==== Proof.lean ====
/-
  A virtual-node layer of a graph network: the Pallas program against its jnp reference, over the extended reals.

  From node features [1000000, 64], node positions [1000000, 3] and a batch index per node (1024 graphs) both programs
  compute, per graph, the mean position (the centre: a scatter-add over the batch indices divided by the clipped node
  count) and the centred positions; per node, four tensor-product weights w = silu (feat · W1 + b1) · W2 + b2 and the 12
  products w[c] · pos[d]; per graph, the mean of those 12 numbers, each channel's 3-vector divided by the larger of its
  length and a small floor, plus the centre.

  The two programs differ only in the middle step.  The kernel computes the products in 50 blocks of 20000 nodes, with
  its two matrix products on operands rounded to the narrow float format and accumulated into zero, and the logistic
  function as one operation; the reference computes them for all nodes at once with the host's products and the logistic
  function spelt 1 / (1 + exp (-x)).  Over the extended reals the roundings are the identity, a product accumulated into
  zero is the plain sum, the spelt quotient IS the logistic function, and a node's products depend on that node's rows
  only — so both arrays are the same function (`VNode.dispArray`) of the features, the centred positions and the
  parameters (Proof/RegionArray.lean with Proof/BodyValue.lean for the kernel, Proof/RefDisplacement.lean for the
  reference).  Everything before and after that step is the same chain of host operations in both programs: it is carried
  as one function (`perGraph`, Proof/GraphMeans.lean) and never opened.  No algebraic law beyond the definitions is
  used, so the finiteness precondition is not needed for the value claim.
-/
import proofs.«165557_j24927990186019_1_alg».proof.Defs
import proofs.«165557_j24927990186019_1_alg».proof.Proof.Gen.Kernel
import proofs.«165557_j24927990186019_1_alg».proof.Proof.Gen.Kernel.Skeleton
import proofs.«165557_j24927990186019_1_alg».proof.Proof.Gen.Kernel.Launch
import proofs.«165557_j24927990186019_1_alg».proof.Proof.Gen.Kernel.Points
import proofs.«165557_j24927990186019_1_alg».proof.Proof.Gen.Kernel.Frame
import proofs.«165557_j24927990186019_1_alg».proof.Proof.Gen.KernelIdeal
import proofs.«165557_j24927990186019_1_alg».proof.Proof.Gen.KernelIdeal.Skeleton
import proofs.«165557_j24927990186019_1_alg».proof.Proof.Gen.KernelIdeal.Launch
import proofs.«165557_j24927990186019_1_alg».proof.Proof.Gen.KernelIdeal.Points
import proofs.«165557_j24927990186019_1_alg».proof.Proof.Gen.KernelIdeal.Frame
import proofs.«165557_j24927990186019_1_alg».proof.Proof.Gen.ReferenceIdeal
import proofs.«165557_j24927990186019_1_alg».proof.Proof.Gen.Pre_finite_inputs
import proofs.«165557_j24927990186019_1_alg».proof.Proof.Gen.ReferenceIdeal.Run
import proofs.«165557_j24927990186019_1_alg».proof.Proof.Gen.ReferenceIdeal.Read
import proofs.«165557_j24927990186019_1_alg».proof.Proof.KernelHost
import proofs.«165557_j24927990186019_1_alg».proof.Proof.GraphMeans
import proofs.«165557_j24927990186019_1_alg».proof.Proof.RefDisplacement
import Idealize.ShloMosaic.Adequacy
import Idealize.ShloMosaic.Init

noncomputable section

namespace Cert.Proof

open Idealize.ShloMosaic Idealize.ShloMosaic.TcCoe Idealize.SL.Sem

/-- The printed kernel runs and leaves its arguments unchanged: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.ReferenceIdeal Cert.ReferenceIdeal.Read Cert.ReferenceIdeal.RefValue in
/-- The reference's result is `perGraph` of the displacement array of its arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v54 m c
      = perGraph (F := Ideal) (m ((c.tc : Thread nD τ).loc main_arg2))
          (val_main_v7 (F := Ideal) (m ((c.tc : Thread nD τ).loc main_arg2)))
          (val_main_v10 (F := Ideal) (m ((c.tc : Thread nD τ).loc main_arg1)) (m ((c.tc : Thread nD τ).loc main_arg2)))
          (Cert.VNode.dispArray (m ((c.tc : Thread nD τ).loc main_arg0))
            (val_main_v18 (F := Ideal) (m ((c.tc : Thread nD τ).loc main_arg1)) (m ((c.tc : Thread nD τ).loc main_arg2)))
            (m ((c.tc : Thread nD τ).loc main_arg3)) (m ((c.tc : Thread nD τ).loc main_arg4))
            (m ((c.tc : Thread nD τ).loc main_arg5)) (m ((c.tc : Thread nD τ).loc main_arg6))) := by
  rw [val_main_v54_eq, stages_eq, disp_eq]

/-- From memories agreeing on the arguments both programs end with the same result: `perGraph` of the displacement
    array of the arguments. -/
theorem algebraic : Cert.algebraic_KernelIdeal_ReferenceIdeal := by
  intro m ρ m' ρ' _ hagree
  refine ⟨fun c => Cert.KernelIdeal.HostValue.result m c, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [reference_result, a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
